-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S100000x64 : Shape := ⟨2, ![100000, 64]⟩
abbrev S10000x10000 : Shape := ⟨2, ![10000, 10000]⟩
abbrev S4096 : Shape := ⟨1, ![4096]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x64 .f32) (main_arg1 : FVec F S100000x64 .f32) (main_arg2 : FVec F S10000x10000 .f32) (main_arg3 : IVec S4096 32) (main_arg4 : IVec S4096 32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  main_v13
-- ==== Kernel.lean ====
abbrev S10000x64 : Shape := ⟨2, ![10000, 64]⟩
abbrev S100000x64 : Shape := ⟨2, ![100000, 64]⟩
abbrev S10000x10000 : Shape := ⟨2, ![10000, 10000]⟩
abbrev S4096 : Shape := ⟨1, ![4096]⟩
abbrev S200x10000 : Shape := ⟨2, ![200, 10000]⟩
abbrev S200x64 : Shape := ⟨2, ![200, 64]⟩
abbrev S_ : Shape := ⟨0, ![]⟩
abbrev S4096x1 : Shape := ⟨2, ![4096, 1]⟩
abbrev S4096x64 : Shape := ⟨2, ![4096, 64]⟩

abbrev nBuf : Space → Nat
  | .hbm => 27
  | .vmem => 5
  | .smem => 0
  | _ => 0

abbrev bufTy : (tb : Table) → Fin (tcTables nBuf tb) → BufTy
  | .hbm, ⟨0, _⟩ => ⟨S10000x64, .f32⟩
  | .hbm, ⟨1, _⟩ => ⟨S100000x64, .f32⟩
  | .hbm, ⟨2, _⟩ => ⟨S10000x10000, .f32⟩
  | .hbm, ⟨3, _⟩ => ⟨S4096, .i32⟩
  | .hbm, ⟨4, _⟩ => ⟨S4096, .i32⟩
  | .hbm, ⟨5, _⟩ => ⟨S10000x64, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x64, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096, .f32⟩
  | .local _ .vmem, ⟨0, _⟩ => ⟨S200x10000, .f32⟩
  | .local _ .vmem, ⟨1, _⟩ => ⟨S200x10000, .f32⟩
  | .local _ .vmem, ⟨2, _⟩ => ⟨S10000x64, .f32⟩
  | .local _ .vmem, ⟨3, _⟩ => ⟨S200x64, .f32⟩
  | .local _ .vmem, ⟨4, _⟩ => ⟨S200x64, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def k0_mult1 (i : grid0.Coords) : BitVec 32 :=
  let arg0 : BitVec 32 := BitVec.ofNat 32 (i 0).val
  let c200_i32 : BitVec 32 := 200#32
  let v5 : BitVec 32 := Scalar.muli arg0 c200_i32
  v5
def k0_off1 (i : grid0.Coords) : Fin 2 → Nat :=
  let arg0 : BitVec 32 := BitVec.ofNat 32 (i 0).val
  let c200_i32 : BitVec 32 := 200#32
  let v5 : BitVec 32 := Scalar.muli arg0 c200_i32
  let v6 : BitVec 32 := v5
  let v7 : Index := Scalar.indexCast v6
  let c0_3 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  h_S200x64 : 0 < S200x64.numel
  inb_S200x64_S200x64_0_0 : ∀ a, (![0, 0] : Fin 2 → Nat) a + S200x64.size a ≤ S200x64.size a
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  dot_S200x10000_S10000x64_S200x64_1_0_0_1_n_n_wf : DotDims.WF S200x10000 S10000x64 S200x64 [1] [0] [0] [1] [] []
  gather_S10000x64_S4096x1_S4096x64_1_0_n_n_0_1_164_wf : GatherDims.WF S10000x64 S4096x1 S4096x64 [1] [0] [] [0] [] 1 ![1, 64]
  gather_S100000x64_S4096x1_S4096x64_1_0_n_n_0_1_164_wf : GatherDims.WF S100000x64 S4096x1 S4096x64 [1] [0] [] [0] [] 1 ![1, 64]
  hrank0 : 0 < grid0.rank
  k0_mult1_dvd : ∀ i : grid0.Coords, 8 ∣ (k0_mult1 i).toNat
  k0_off1_inb : ∀ i : grid0.Coords, ∀ a, (k0_off1 i) a + S200x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S10000x64.size a
  hwx0_2 : ∀ i : grid0.Coords, EltTy.bits .f32 = 32 ∨ (Rect.block (s := S10000x64) S200x64.size (cc0_transform_2 i) (hinb0_2 i)).WholeWords (EltTy.packing .f32)

variable [Facts₀]

def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def gather_S10000x64_S4096x1_S4096x64_1_0_n_n_0_1_164 : GatherDims S10000x64 S4096x1 S4096x64 where
  offsetDims := [1]
  collapsedSliceDims := [0]
  operandBatchingDims := []
  startIndicesBatchingDims := []
  startIndexMap := [0]
  indexVectorDim := 1
  sliceSizes := ![1, 64]
  wf := gather_S10000x64_S4096x1_S4096x64_1_0_n_n_0_1_164_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x64 : Shape := ⟨2, ![10000, 64]⟩
abbrev S100000x64 : Shape := ⟨2, ![100000, 64]⟩
abbrev S10000x10000 : Shape := ⟨2, ![10000, 10000]⟩
abbrev S4096 : Shape := ⟨1, ![4096]⟩
abbrev S_ : Shape := ⟨0, ![]⟩
abbrev S4096x1 : Shape := ⟨2, ![4096, 1]⟩
abbrev S4096x64 : Shape := ⟨2, ![4096, 64]⟩
abbrev S4096x10000 : Shape := ⟨2, ![4096, 10000]⟩

abbrev nBuf : Space → Nat
  | .hbm => 40
  | .vmem => 0
  | .smem => 0
  | _ => 0

abbrev bufTy : (tb : Table) → Fin (tcTables nBuf tb) → BufTy
  | .hbm, ⟨0, _⟩ => ⟨S10000x64, .f32⟩
  | .hbm, ⟨1, _⟩ => ⟨S100000x64, .f32⟩
  | .hbm, ⟨2, _⟩ => ⟨S10000x10000, .f32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x64, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x64, .f32⟩
  | .hbm, ⟨23, _⟩ => ⟨S4096x64, .f32⟩
  | .hbm, ⟨24, _⟩ => ⟨S_, .f32⟩
  | .hbm, ⟨25, _⟩ => ⟨S4096, .f32⟩
  | .hbm, ⟨26, _⟩ => ⟨S4096x10000, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x10000, .f32⟩
  | .hbm, ⟨36, _⟩ => ⟨S4096x10000, .f32⟩
  | .hbm, ⟨37, _⟩ => ⟨S_, .f32⟩
  | .hbm, ⟨38, _⟩ => ⟨S4096, .f32⟩
  | .hbm, ⟨39, _⟩ => ⟨S4096, .f32⟩
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096x10000_S4096_d1 : S4096x10000.ReducesTo [1] S4096
  gather_S10000x64_S4096x1_S4096x64_1_0_n_n_0_1_164_wf : GatherDims.WF S10000x64 S4096x1 S4096x64 [1] [0] [] [0] [] 1 ![1, 64]
  gather_S100000x64_S4096x1_S4096x64_1_0_n_n_0_1_164_wf : GatherDims.WF S100000x64 S4096x1 S4096x64 [1] [0] [] [0] [] 1 ![1, 64]
  dot_S4096x64_S10000x64_S4096x10000_1_1_0_0_n_n_wf : DotDims.WF S4096x64 S10000x64 S4096x10000 [1] [1] [0] [0] [] []
  gather_S10000x10000_S4096x1_S4096x10000_1_0_n_n_0_1_110000_wf : GatherDims.WF S10000x10000 S4096x1 S4096x10000 [1] [0] [] [0] [] 1 ![1, 10000]

variable [Facts₀]

def gather_S10000x64_S4096x1_S4096x64_1_0_n_n_0_1_164 : GatherDims S10000x64 S4096x1 S4096x64 where
  offsetDims := [1]
  collapsedSliceDims := [0]
  operandBatchingDims := []
  startIndicesBatchingDims := []
  startIndexMap := [0]
  indexVectorDim := 1
  sliceSizes := ![1, 64]
  wf := gather_S10000x64_S4096x1_S4096x64_1_0_n_n_0_1_164_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def dot_S4096x64_S10000x64_S4096x10000_1_1_0_0_n_n : DotDims S4096x64 S10000x64 S4096x10000 where
  lhsContracting := [1]
  rhsContracting := [1]
  lhsNonContracting := [0]
  rhsNonContracting := [0]
  lhsBatch := []
  rhsBatch := []
  wf := dot_S4096x64_S10000x64_S4096x10000_1_1_0_0_n_n_wf
def gather_S10000x10000_S4096x1_S4096x10000_1_0_n_n_0_1_110000 : GatherDims S10000x10000 S4096x1 S4096x10000 where
  offsetDims := [1]
  collapsedSliceDims := [0]
  operandBatchingDims := []
  startIndicesBatchingDims := []
  startIndexMap := [0]
  indexVectorDim := 1
  sliceSizes := ![1, 10000]
  wf := gather_S10000x10000_S4096x1_S4096x10000_1_0_n_n_0_1_110000_wf

class Facts : Prop extends Facts₀ where

variable [Facts]
-- ==== Proof.Finite.lean ====
/-
  What the precondition says: every entry of the three float tables is a real number.

  The precondition is the conjunction of three tests "every |x| is below +∞", one per float table, each an `and`
  reduction over all entries of the elementwise comparison. On the extended reals |x| = max x (−x) is +∞ exactly
  at the two infinities, so an entry passing the test is the image of a real.
-/
import proofs.«119701_j51737176048221_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- The f32 pattern with all exponent bits set and no fraction bit denotes +∞. -/
theorem inf_pattern : Ideal.ofBits .f32 0x7F800000#32 = (⊤ : EReal) := by simp [Ideal.ofBits, Ideal.ieee]

/-- An extended real whose absolute value is below +∞ is a real. -/
theorem real_of_abs_lt (x : EReal) (h : Ideal.cmp .olt (max x (-x)) (⊤ : EReal) = 1#1) : ∃ r : ℝ, x = (r : EReal) := by
  induction x using EReal.rec with
  | bot => exfalso; revert h; simp [Ideal.cmp]
  | top => exfalso; revert h; simp [Ideal.cmp]
  | coe r => exact ⟨r, rfl⟩

/-- One table's test read at an entry. -/
theorem real_of_test {S : Shape} (a : FVec Ideal S .f32)
    (bc : Cert.Pre_finite_inputs.S_.BroadcastsInDim S (![] : Fin 0 → Fin S.rank)) (i : S.Idx)
    (h : cmpf .olt (Host.absf a) (broadcastInDim S ![] bc (constant (F := Ideal) Cert.Pre_finite_inputs.S_ .f32 0x7F800000#32)) i = 1#1) :
    ∃ r : ℝ, a i = (r : EReal) := by
  have hb : broadcastInDim S ![] bc (constant (F := Ideal) Cert.Pre_finite_inputs.S_ .f32 0x7F800000#32) i
      = Ideal.ofBits .f32 0x7F800000#32 := broadcastInDim_apply _ bc _ i ix0 (fun d => d.elim0)
  refine real_of_abs_lt (a i) ?_
  rw [← inf_pattern, ← hb]
  exact h

variable [Cert.Pre_finite_inputs.Facts]

/-- The precondition, all ones, gives each of the three float tables real entries. -/
theorem entries_real (a0 : FVec Ideal Cert.Pre_finite_inputs.S10000x64 .f32)
    (a1 : FVec Ideal Cert.Pre_finite_inputs.S100000x64 .f32) (a2 : FVec Ideal Cert.Pre_finite_inputs.S10000x10000 .f32)
    (a3 a4 : IVec Cert.Pre_finite_inputs.S4096 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => real_of_test a0 _ i (Host.reduce_andi_all _ _ _ _ _ h0' i),
    fun i => real_of_test a1 _ i (Host.reduce_andi_all _ _ _ _ _ h1 i),
    fun i => real_of_test a2 _ i (Host.reduce_andi_all _ _ _ _ _ h2 i)⟩

end Cert.Finite

end
-- ==== Proof.LibRowGather.lean ====
/-
  A row gather read at an index.

  What `x[idx]` of a matrix `x : [N, C]` at an integer vector `idx` of `R` row numbers lowers to: a gather with
  offset axis 1, collapsed slice axis 0, start index map [0], slice sizes [1, C] and the start indices laid as an
  `[R, 1]` column (index vector axis 1). Result element (r, j) is the matrix at row `idx[r, 0]` — read as a signed
  integer and clamped into [0, N − 1], as every start index of a gather is clamped so that the slice fits — and
  column j. The row therefore always exists, whatever the integer.
-/
import Idealize.ShloMosaic.Lib.ValueIdx

noncomputable section

namespace Idealize.ShloMosaic.RowGather

open Idealize.ShloMosaic Idealize.ShloMosaic.ValueIdx

variable {α : Type}

/-- Those dimension numbers for a matrix `[N, C]`, start indices `[R, 1]` and result `[R, C]`; their conditions are
    decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of an `N`-row matrix that the `r`-th start index names: the integer read signed, clamped into [0, N − 1]. -/
def rowOf {R w : Nat} (N : Nat) (hN : 0 < N) (idx : IVec ⟨2, ![R, 1]⟩ w) (r : Fin R) : Fin N :=
  ⟨min (idx (ix2 r (0 : Fin 1))).toInt.toNat (N - 1), by omega⟩

/-- THE GATHER READ AT (r, j): the matrix at the clamped row the `r`-th start index names, column `j`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowDims N C R wf) x idx (ix2 r j) = x (ix2 (rowOf N hN idx r) j) := by
  unfold Host.gather
  congr 1
  funext a
  refine Fin.ext ?_
  match a with
  | ⟨0, _⟩ =>
    show (rowDims N C R wf).start (ix2 r j) idx 0 + (rowDims N C R wf).batchCoord (ix2 r j) 0
        + (rowDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r j) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r j) idx 1 + (rowDims N C R wf).batchCoord (ix2 r j) 1
        + (rowDims N C R wf).offCoord (ix2 r j) 1 = j.val
    rw [GatherDims.batchCoord_eq_zero _ _ _ List.not_mem_nil]
    unfold GatherDims.start
    rw [dif_neg (show ¬ (1 : Fin 2) ∈ (rowDims N C R wf).startIndexMap from
      fun h => Nat.one_ne_zero (congrArg Fin.val (List.mem_singleton.mp h)))]
    unfold GatherDims.offCoord
    rw [dif_pos ((GatherDims.mem_sKept _ _).mpr
      ⟨fun h => Nat.one_ne_zero (congrArg Fin.val (List.mem_singleton.mp h)), List.not_mem_nil⟩)]
    simp only [Nat.zero_add]
    rfl

end Idealize.ShloMosaic.RowGather

end
-- ==== Proof.Scores.lean ====
/-
  The score both programs compute, in its two arrangements, and the law between them.

  For a batch entry b with user row U = ru b and item row I = ri b, over the user table ue : [10000, 64], the item
  table ie : [100000, 64] and the social weights sw : [10000, 10000]:

    fused:  Σ_d (Σ_u sw[U, u] · ue[u, d]  +  ue[U, d]) · ie[I, d]
    split:  Σ_d ue[U, d] · ie[I, d]  +  Σ_u sw[U, u] · (Σ_d ie[I, d] · ue[u, d])

  The fused form multiplies the item row into one blended row; the split form adds the plain dot product and the
  socially weighted sum of all users' dot products with the item. They differ by distributing the product over the
  inner sum and exchanging the two finite sums — laws of the reals that FAIL at the infinities of the extended reals
  (∞ · (1 + (−1)) is 0 while ∞ · 1 + ∞ · (−1) is not), so the equality is proved for tables of finite entries: each
  entry is named as a real, the sums are computed in ℝ, and the coercion is pushed out through the finite sums.
-/
import Idealize.ShloMosaic.Lib.ValueIdx

noncomputable section

open scoped BigOperators

namespace Cert.Scores

open Idealize.ShloMosaic Idealize.ShloMosaic.ValueIdx

/-! ## The law, over the reals and any finite index types -/

/-- Distribute the outer factor over the inner sum, then exchange the two sums. -/
theorem real_law {ι κ : Type} [Fintype ι] [Fintype κ] (s : ι → ℝ) (e : ι → κ → ℝ) (a i : κ → ℝ) :
    ∑ d, ((∑ u, s u * e u d) + a d) * i d = (∑ d, a d * i d) + ∑ u, s u * ∑ d, i d * e u d := by
  calc ∑ d, ((∑ u, s u * e u d) + a d) * i d
      = ∑ d, ((∑ u, s u * (i d * e u d)) + a d * i d) :=
        Finset.sum_congr rfl fun d _ => by
          rw [add_mul, Finset.sum_mul]
          exact congrArg (· + a d * i d) (Finset.sum_congr rfl fun u _ => by ring)
    _ = (∑ d, ∑ u, s u * (i d * e u d)) + ∑ d, a d * i d := Finset.sum_add_distrib
    _ = (∑ u, ∑ d, s u * (i d * e u d)) + ∑ d, a d * i d := by rw [Finset.sum_comm]
    _ = (∑ d, a d * i d) + ∑ u, s u * ∑ d, i d * e u d := by
        rw [add_comm]
        exact congrArg ((∑ d, a d * i d) + ·) (Finset.sum_congr rfl fun u _ => (Finset.mul_sum _ _ _).symm)

/-- A finite sum of reals, each read as an extended real, is the real sum read as an extended real. -/
theorem coe_sum {ι : Type} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- The law on the extended reals, for finite entries: both sides are the coercion of one real. -/
theorem ereal_law {ι κ : Type} [Fintype ι] [Fintype κ] (s : ι → ℝ) (e : ι → κ → ℝ) (a i : κ → ℝ) :
    (0 : EReal) + ∑ d, ((∑ u, (s u : EReal) * (e u d : EReal)) + (a d : EReal)) * (i d : EReal)
      = (0 + ∑ d, (a d : EReal) * (i d : EReal)) + (0 + ∑ u, (s u : EReal) * ∑ d, (i d : EReal) * (e u d : EReal)) := by
  simp only [zero_add, ← EReal.coe_mul, coe_sum, ← EReal.coe_add]
  exact congrArg _ (real_law s e a i)

/-! ## The two arrangements, over the literal tables -/

/-- Entry (r, d) of the blended table: the socially weighted sum of all users' embeddings, plus user r's own. -/
def blended (sw : (⟨2, ![10000, 10000]⟩ : Shape).Idx → EReal) (ue : (⟨2, ![10000, 64]⟩ : Shape).Idx → EReal)
    (r : Fin 10000) (d : Fin 64) : EReal :=
  (∑ u : Fin 10000, sw (ix2 r u) * ue (ix2 u d)) + ue (ix2 r d)

/-- The fused arrangement: the item row against the blended row of the user. -/
def scoreFused (ue : (⟨2, ![10000, 64]⟩ : Shape).Idx → EReal) (ie : (⟨2, ![100000, 64]⟩ : Shape).Idx → EReal)
    (sw : (⟨2, ![10000, 10000]⟩ : Shape).Idx → EReal) (ru : Fin 4096 → Fin 10000) (ri : Fin 4096 → Fin 100000)
    (b : Fin 4096) : EReal :=
  0 + ∑ d : Fin 64, blended sw ue (ru b) d * ie (ix2 (ri b) d)

/-- The split arrangement: the plain dot product plus the socially weighted sum of every user's dot product. -/
def scoreSplit (ue : (⟨2, ![10000, 64]⟩ : Shape).Idx → EReal) (ie : (⟨2, ![100000, 64]⟩ : Shape).Idx → EReal)
    (sw : (⟨2, ![10000, 10000]⟩ : Shape).Idx → EReal) (ru : Fin 4096 → Fin 10000) (ri : Fin 4096 → Fin 100000)
    (b : Fin 4096) : EReal :=
  (0 + ∑ d : Fin 64, ue (ix2 (ru b) d) * ie (ix2 (ri b) d))
    + (0 + ∑ u : Fin 10000, sw (ix2 (ru b) u) * ∑ d : Fin 64, ie (ix2 (ri b) d) * ue (ix2 u d))

/-- For tables of finite entries the two arrangements agree, at every batch entry and whatever rows are picked. -/
theorem scoreFused_eq_scoreSplit (ue : (⟨2, ![10000, 64]⟩ : Shape).Idx → EReal)
    (ie : (⟨2, ![100000, 64]⟩ : Shape).Idx → EReal) (sw : (⟨2, ![10000, 10000]⟩ : Shape).Idx → EReal)
    (hue : ∀ i, ∃ x : ℝ, ue i = (x : EReal)) (hie : ∀ i, ∃ x : ℝ, ie i = (x : EReal))
    (hsw : ∀ i, ∃ x : ℝ, sw i = (x : EReal))
    (ru : Fin 4096 → Fin 10000) (ri : Fin 4096 → Fin 100000) (b : Fin 4096) :
    scoreFused ue ie sw ru ri b = scoreSplit ue ie sw ru ri b := by
  choose ue' hue' using hue
  choose ie' hie' using hie
  choose sw' hsw' using hsw
  obtain rfl : ue = fun i => ((ue' i : ℝ) : EReal) := funext hue'
  obtain rfl : ie = fun i => ((ie' i : ℝ) : EReal) := funext hie'
  obtain rfl : sw = fun i => ((sw' i : ℝ) : EReal) := funext hsw'
  unfold scoreFused scoreSplit blended
  exact ereal_law (fun u => sw' (ix2 (ru b) u)) (fun u d => ue' (ix2 u d)) (fun d => ue' (ix2 (ru b) d))
    (fun d => ie' (ix2 (ri b) d))

end Cert.Scores

end
-- ==== Proof.RefValue.lean ====
/-
  The reference's result, entry by entry, is the split arrangement of the score.

  The reference gathers the user's row of the user table and of the social weights, and the item's row of the item
  table — each a row gather, which reads the clamped row its start index names —, takes the plain dot product of the
  two embedding rows, the dot product of the item row with EVERY user's embedding (a contraction over the 64
  features, one result per user), weighs those by the user's social row and sums over the 10000 users, and adds the
  two numbers. Both row sums start from the zero pattern, which denotes 0.
-/
import proofs.«119701_j51737176048221_2_alg».proof.Proof.Gen.ReferenceIdeal.Read
import proofs.«119701_j51737176048221_2_alg».proof.Proof.LibRowGather
import proofs.«119701_j51737176048221_2_alg».proof.Proof.Scores

noncomputable section

namespace Cert.ReferenceIdeal.RefValue

open Cert.ReferenceIdeal Cert.ReferenceIdeal.Gen Cert.ReferenceIdeal.Read
open Idealize.ShloMosaic Idealize.ShloMosaic.ValueIdx Idealize.ShloMosaic.RowGather

/-- A row of the user table (10000 rows of 64) picked by a column of start indices. -/
theorem userRow (x : (⟨S10000x64, .f32⟩ : BufTy).Contents (Elt Ideal)) (ia : (⟨S4096x1, .i32⟩ : BufTy).Contents (Elt Ideal)) (b : Fin 4096) (k : Fin 64) :
    Host.gather gather_S10000x64_S4096x1_S4096x64_1_0_n_n_0_1_164 x ia (ix2 b k)
      = x (ix2 (rowOf 10000 (by decide) ia b) k) :=
  gather_row_apply (by decide) gather_S10000x64_S4096x1_S4096x64_1_0_n_n_0_1_164_wf x ia b k

/-- A row of the item table (100000 rows of 64). -/
theorem itemRow (x : (⟨S100000x64, .f32⟩ : BufTy).Contents (Elt Ideal)) (ia : (⟨S4096x1, .i32⟩ : BufTy).Contents (Elt Ideal)) (b : Fin 4096) (k : Fin 64) :
    Host.gather gather_S100000x64_S4096x1_S4096x64_1_0_n_n_0_1_164 x ia (ix2 b k)
      = x (ix2 (rowOf 100000 (by decide) ia b) k) :=
  gather_row_apply (by decide) gather_S100000x64_S4096x1_S4096x64_1_0_n_n_0_1_164_wf x ia b k

/-- A row of the social weights (10000 rows of 10000). -/
theorem socialRow (x : (⟨S10000x10000, .f32⟩ : BufTy).Contents (Elt Ideal)) (ia : (⟨S4096x1, .i32⟩ : BufTy).Contents (Elt Ideal)) (b : Fin 4096) (u : Fin 10000) :
    Host.gather gather_S10000x10000_S4096x1_S4096x10000_1_0_n_n_0_1_110000 x ia (ix2 b u)
      = x (ix2 (rowOf 10000 (by decide) ia b) u) :=
  gather_row_apply (by decide) gather_S10000x10000_S4096x1_S4096x10000_1_0_n_n_0_1_110000_wf x ia b u

/-- The indices the generated read-back composes are the coordinate pairs. -/
theorem idx15 (b : Fin 4096) (k : Fin 64) : idx_main_v15 (ix1 b) k = ix2 b k :=
  funext fun a => Fin.ext (by match a with | ⟨0, _⟩ => rfl | ⟨1, _⟩ => rfl)
theorem idx25 (b : Fin 4096) (u : Fin 10000) : idx_main_v25 (ix1 b) u = ix2 b u :=
  funext fun a => Fin.ext (by match a with | ⟨0, _⟩ => rfl | ⟨1, _⟩ => rfl)
theorem lidx16 (b : Fin 4096) (u : Fin 10000) (k : Fin 64) : lidx_main_v16 (ix2 b u) k = ix2 b k :=
  funext fun a => Fin.ext (by match a with | ⟨0, _⟩ => rfl | ⟨1, _⟩ => rfl)
theorem ridx16 (b : Fin 4096) (u : Fin 10000) (k : Fin 64) : ridx_main_v16 (ix2 b u) k = ix2 u k :=
  funext fun a => Fin.ext (by match a with | ⟨0, _⟩ => rfl | ⟨1, _⟩ => rfl)

/-- The reference's result at batch entry `b` is the split arrangement, the user row and item row picked by its two
    normalized index columns. -/
theorem result_apply (x0 : (⟨S10000x64, .f32⟩ : BufTy).Contents (Elt Ideal)) (x1 : (⟨S100000x64, .f32⟩ : BufTy).Contents (Elt Ideal))
    (x2 : (⟨S10000x10000, .f32⟩ : BufTy).Contents (Elt Ideal)) (x3 x4 : (⟨S4096, .i32⟩ : BufTy).Contents (Elt Ideal)) (b : Fin 4096) :
    val_main_v26 (F := Ideal) x0 x1 x2 x3 x4 (ix1 b)
      = Cert.Scores.scoreSplit x0 x1 x2 (rowOf 10000 (by decide) (val_main_v5 (F := Ideal) x3))
          (rowOf 100000 (by decide) (val_main_v12 (F := Ideal) x4)) b := by
  rw [val_main_v26_apply, val_main_v15_apply, val_main_v25_apply]
  simp only [idx15, idx25, val_main_v14_apply, val_main_v24_apply, val_main_v16_apply, lidx16, ridx16]
  unfold val_main_v6 val_main_v13 val_main_v23
  simp only [val_main_cst_apply, val_main_cst_5_apply, Ideal.ofBits_def, Ideal.ofBits_zero_f32, Ideal.addf_def,
    Ideal.mulf_def]
  unfold Cert.Scores.scoreSplit
  refine congrArg₂ (· + ·) (congrArg (0 + ·) (Finset.sum_congr rfl fun k _ => ?_))
    (congrArg (0 + ·) (Finset.sum_congr rfl fun u _ => ?_))
  · exact congrArg₂ (· * ·) (userRow x0 _ b k) (itemRow x1 _ b k)
  · refine congrArg₂ (· * ·) (socialRow x2 _ b u) (Finset.sum_congr rfl fun k _ => ?_)
    exact congrArg (· * x0 (ix2 u k)) (itemRow x1 _ b k)

end Cert.ReferenceIdeal.RefValue

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.BlendedTable.lean ====
/-
  The table the kernel region leaves: every entry (r, d) is the socially weighted sum of all users' embeddings at
  feature d plus user r's own embedding there.

  The region runs over 50 grid points. At point t it holds rows 200·t … 200·t + 199 of the social weights (all 10000
  columns) and the whole user table; it multiplies the two (a plain matrix product into a zero accumulator, the
  change of float format being the identity on extended reals), adds rows 200·t … 200·t + 199 of the user table —
  read from the resident copy at a row offset computed from the grid coordinate — and writes the 200 × 64 result back
  as rows 200·t … 200·t + 199 of the output. Each written block is therefore the restriction of ONE whole-table function
  of the two argument arrays, and the 50 blocks tile the 10000 rows.
-/
import proofs.«119701_j51737176048221_2_alg».proof.Proof.Gen.KernelIdeal.Frame
import proofs.«119701_j51737176048221_2_alg».proof.Proof.LibPlainDot
import proofs.«119701_j51737176048221_2_alg».proof.Proof.Scores
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blend

open Cert.KernelIdeal Cert.KernelIdeal.Gen Idealize.ShloMosaic.ValueIdx

/-! ## What one grid point leaves in the output's staging buffer -/

theorem hz : (![0, 0] : Fin 2 → Nat) = fun _ => 0 := funext fun a => by fin_cases a <;> rfl

/-- The body's one store covers the output block with its payload: the product-and-sum of the two loaded blocks and
    the tile of the second one at the point's row offset. -/
theorem stored_eq {F : FTy → Type} [FloatOps F] (c : Dev nD) (i : grid0.Coords)
    (arg1 : Memref sig .tc .vmem S200x10000 .f32) (harg1 : arg1.IsWhole)
    (arg2 : Memref sig .tc .vmem S10000x64 .f32) (harg2 : arg2.IsWhole)
    (arg3 : Memref sig .tc .vmem S200x64 .f32) (harg3 : arg3.IsWhole)
    (x0 : Vec F S200x10000 .f32) (x1 : Vec F S10000x64 .f32) :
    out0_A_2 c i arg1 harg1 arg2 harg2 arg3 harg3 x0 x1
      = k0_pay1 x0 x1 (View.ld x1 (Rect.unit (s := S10000x64) (k0_off1 i) S200x64.size (k0_off1_inb i))) := by
  unfold out0_A_2
  rw [View.read_writes_eq_canon _ _ _ (cover0_A_2 c i arg1 harg1 arg2 harg2 arg3 harg3 x0 x1)]
  unfold kernelRun0_A
  dsimp only
  try sl_unfold_words
  rw [View.canon_unit_zero hz]
  simp only [View.readAt_eq_ld, harg1.read_unread, harg2.read_unread, View.ld_unit_zero (S := S200x10000) hz,
    View.ld_unit_zero (S := S10000x64) hz]

/-- The payload at entry (p, q), on the extended reals: row p of the first block against column q of the second,
    plus the tile's entry. -/
theorem payload_apply (v0 : Vec Ideal S200x10000 .f32) (v2 : Vec Ideal S10000x64 .f32) (v8 : Vec Ideal S200x64 .f32)
    (p : Fin 200) (q : Fin 64) :
    k0_pay1 (F := Ideal) v0 v2 v8 (ix2 p q) = (∑ k : Fin 10000, v0 (ix2 p k) * v2 (ix2 k q)) + v8 (ix2 p q) := by
  unfold k0_pay1
  refine (addf_apply _ _ _).trans ?_
  refine congrArg (· + v8 (ix2 p q)) ?_
  exact PlainDot.matmul_plain dot_S200x10000_S10000x64_S200x64_1_0_0_1_n_n rfl none
    (truncf .bf16 v0 bitsLt_bf16_f32) (truncf .bf16 v2 bitsLt_bf16_f32) p q

/-- The tile of the resident table at row offset `o`: entry (p, q) is the table's at (o + p, q). -/
theorem tile_apply (x1 : Vec Ideal S10000x64 .f32) (off : Fin 2 → Nat)
    (inb : ∀ a, off a + S200x64.size a ≤ S10000x64.size a) (o : Nat) (h0 : off 0 = o) (h1 : off 1 = 0)
    (p : Fin 200) (q : Fin 64) (hp : o + p.val < 10000) :
    View.ld x1 (Rect.unit (s := S10000x64) off S200x64.size inb) (ix2 p q) = x1 (ix2 ⟨o + p.val, hp⟩ q) := by
  show x1 ((Rect.unit (s := S10000x64) off S200x64.size inb).idx (ix2 p q)) = _
  refine congrArg x1 (funext fun d => Fin.ext ?_)
  match d with
  | ⟨0, _⟩ => show off 0 + 1 * p.val = o + p.val; rw [h0, Nat.one_mul]
  | ⟨1, _⟩ => show off 1 + 1 * q.val = q.val; rw [h1, Nat.one_mul, Nat.zero_add]

/-- ONE POINT, over plain variables: if the first block holds rows o … o + 199 of the weights `sw`, the second block is
    the user table `ue` and the tile's offset is (o, 0), then the stored block's entry (p, q) is the blended table's at
    (o + p, q). -/
theorem point_apply (x0 : Vec Ideal S200x10000 .f32) (x1 : Vec Ideal S10000x64 .f32) (off : Fin 2 → Nat)
    (inb : ∀ a, off a + S200x64.size a ≤ S10000x64.size a) (o : Nat) (h0 : off 0 = o) (h1 : off 1 = 0)
    (sw : (⟨2, ![10000, 10000]⟩ : Shape).Idx → EReal)
    (p : Fin 200) (q : Fin 64) (hp : o + p.val < 10000)
    (hsw : ∀ u : Fin 10000, x0 (ix2 p u) = sw (ix2 ⟨o + p.val, hp⟩ u)) :
    k0_pay1 (F := Ideal) x0 x1 (View.ld x1 (Rect.unit (s := S10000x64) off S200x64.size inb)) (ix2 p q)
      = Cert.Scores.blended sw x1 ⟨o + p.val, hp⟩ q := by
  rw [payload_apply, tile_apply x1 off inb o h0 h1 p q hp]
  unfold Cert.Scores.blended
  exact congrArg (· + x1 (ix2 ⟨o + p.val, hp⟩ q)) (Finset.sum_congr rfl fun u _ => by rw [hsw u])

/-! ## The index maps, decided over the grid -/

/-- Point t fetches block row t of the weights, the whole user table, reads the tile at row 200·t and writes block
    row t of the output. -/
theorem idx_facts : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0
    ∧ k0_off1 (grid0.coords t) (0 : Fin 2) = t.val * 200 ∧ k0_off1 (grid0.coords t) (1 : Fin 2) = 0 :=
  (by decide +kernel : ∀ t : Fin grid0.N, _)

end Cert.KernelIdeal.Blend

end
-- ==== Proof.BlendedArray.lean ====
/-
  The region's output array after the run is the blended table of the two argument arrays.

  Point t's input blocks are read off the argument arrays where the index maps say: rows 200·t … 200·t + 199 of the
  weights, and the whole user table. With the one-point statement this makes what point t writes back the block
  (rows 200·t … 200·t + 199, all 64 columns) of the blended table; row r of the table lies in the block of point
  r / 200, so the 50 written blocks cover the array and it ends holding the table.
-/
import proofs.«119701_j51737176048221_2_alg».proof.Proof.BlendedTable

set_option maxRecDepth 16384

noncomputable section

open Idealize.ShloMosaic Idealize.ShloMosaic.TcCoe Idealize.SL.Sem
open Idealize.ShloMosaic.Pipeline (Dat)

namespace Cert.KernelIdeal.Blend

open Cert.KernelIdeal Cert.KernelIdeal.Gen Idealize.ShloMosaic.ValueIdx

variable (m : (ℓ : Loc nD τ sig) → Buf (Elt Ideal) ℓ)

/-- The blended table as an array: entry (r, d) from the weights `sw` and the user table `ue`. -/
def table (sw : S10000x10000.Idx → EReal) (ue : S10000x64.Idx → EReal) : S10000x64.Idx → EReal :=
  fun i => Cert.Scores.blended sw ue (i 0) (i 1)

/-- The weights' block at point t: entry (p, u) is the weights' at (200·t + p, u). -/
theorem weights_block (c : Dev nD) (t : Fin cfg0.N) (p : Fin 200) (u : Fin 10000) (hp : t.val * 200 + p.val < 10000) :
    (iblk m c 0 t : Vec Ideal S200x10000 .f32) (ix2 p u)
      = (V m c main_arg2 : S10000x10000.Idx → EReal) (ix2 ⟨t.val * 200 + p.val, hp⟩ u) := by
  obtain ⟨-, -, e0, e1, -⟩ := idx_facts t
  unfold iblk
  rw [View.read_apply]
  show (V m c main_arg2 : S10000x10000.Idx → EReal) _ = _
  refine congrArg (V m c main_arg2 : S10000x10000.Idx → EReal) (funext fun a => Fin.ext ?_)
  match a with
  | ⟨0, _⟩ => show win0_0.index t (0 : Fin 2) * 200 + 1 * p.val = t.val * 200 + p.val; rw [e0]; omega
  | ⟨1, _⟩ => show win0_0.index t (1 : Fin 2) * 10000 + 1 * u.val = u.val; rw [e1]; omega

/-- The user table's block at every point is the whole table. -/
theorem users_block (c : Dev nD) (t : Fin cfg0.N) :
    (iblk m c 1 t : Vec Ideal S10000x64 .f32) = (V m c main_arg0 : S10000x64.Idx → EReal) := by
  obtain ⟨-, -, -, -, e0, e1, -⟩ := idx_facts t
  funext j
  unfold iblk
  rw [View.read_apply]
  show (V m c main_arg0 : S10000x64.Idx → EReal) _ = _
  refine congrArg (V m c main_arg0 : S10000x64.Idx → EReal) (funext fun a => Fin.ext ?_)
  match a with
  | ⟨0, _⟩ => show win0_1.index t (0 : Fin 2) * 10000 + 1 * (j 0).val = (j 0).val; rw [e0]; omega
  | ⟨1, _⟩ => show win0_1.index t (1 : Fin 2) * 64 + 1 * (j 1).val = (j 1).val; rw [e1]; omega

/-- WHAT POINT t WRITES BACK is block t of the blended table of the argument arrays as the region finds them. -/
theorem flushed_eq (c : Dev nD) (t : Fin cfg0.N) :
    (dats m 0 c).flushed 2 t
      = ((cfg0.win 2).blk t).view.read (Elt Ideal) (table (V m c main_arg2) (V m c main_arg0)) := by
  show (cfg0.win 2).cut (grid0.coords t) ((dats m 0 c).after 2 t) = _
  rw [after0_2]
  unfold outsAt0
  rw [stored_eq]
  obtain ⟨e20, e21, -, -, -, -, eo0, eo1⟩ := idx_facts t
  have ht : t.val < 50 := lt_of_lt_of_eq t.isLt N_0
  show (k0_pay1 (F := Ideal) (iblk m c 0 t) (iblk m c 1 t)
      (View.ld (iblk m c 1 t) (Rect.unit (s := S10000x64) (k0_off1 (grid0.coords t)) S200x64.size (k0_off1_inb (grid0.coords t))))
        : S200x64.Idx → EReal)
    = fun y : S200x64.Idx => table (V m c main_arg2) (V m c main_arg0) (((cfg0.win 2).blk t).view.emb y)
  funext j
  obtain ⟨p, q, rfl⟩ : ∃ (p : Fin 200) (q : Fin 64), j = ix2 p q := ⟨j 0, j 1, eq_ix2 j⟩
  have hp : t.val * 200 + p.val < 10000 := by have := p.isLt; omega
  refine (point_apply (iblk m c 0 t) (iblk m c 1 t) (k0_off1 (grid0.coords t)) (k0_off1_inb (grid0.coords t))
    (t.val * 200) eo0 eo1 (V m c main_arg2) p q hp (fun u => weights_block m c t p u hp)).trans ?_
  rw [users_block]
  unfold table
  have e0 : (((cfg0.win 2).blk t).view.emb (ix2 p q) : S10000x64.Idx) 0 = ⟨t.val * 200 + p.val, hp⟩ := Fin.ext (by
    show win0_2.index t (0 : Fin 2) * 200 + 1 * p.val = t.val * 200 + p.val; rw [e20]; omega)
  have e1 : (((cfg0.win 2).blk t).view.emb (ix2 p q) : S10000x64.Idx) 1 = q := Fin.ext (by
    show win0_2.index t (1 : Fin 2) * 64 + 1 * q.val = q.val; rw [e21]; omega)
  rw [e0, e1]
  rfl

/-- An index of the array is in point t's block iff each coordinate is in the block's range on its axis. -/
theorem mem_blk (t : Fin cfg0.N) (i : S10000x64.Idx) :
    i ∈ ((cfg0.win 2).blk t).view.set ↔ ∀ a : Fin 2, win0_2.index t a * S200x64.size a ≤ (i a).val
      ∧ (i a).val < win0_2.index t a * S200x64.size a + S200x64.size a := by
  show i ∈ ((View.whole main_v0).slice (win0_2.rect t)).set ↔ _
  rw [View.set_slice_whole, Rect.mem_set_unit]
  exact Iff.rfl

/-- THE ARRAY after the run: the blended table. Row r is written by point r / 200. -/
theorem final (c : Dev nD) : (dats m 0 c).arrAt 2 cfg0.N = table (V m c main_arg2) (V m c main_arg0) :=
  (dats m 0 c).arrAt_eq_of_cover 2 (table (V m c main_arg2) (V m c main_arg0)) (fun t _ => flushed_eq m c t) fun i => by
    have hi0 : (i 0).val < 10000 := (i 0).isLt
    have hi1 : (i 1).val < 64 := (i 1).isLt
    have hN : cfg0.N = 50 := N_0
    have hlt : (i 0).val / 200 < cfg0.N := by rw [hN]; omega
    obtain ⟨e20, e21, -⟩ := idx_facts ⟨(i 0).val / 200, hlt⟩
    refine ⟨⟨(i 0).val / 200, hlt⟩, flush0_2 _, ?_⟩
    rw [mem_blk]
    intro a
    match a with
    | ⟨0, _⟩ =>
      show win0_2.index ⟨(i 0).val / 200, hlt⟩ (0 : Fin 2) * 200 ≤ (i 0).val
        ∧ (i 0).val < win0_2.index ⟨(i 0).val / 200, hlt⟩ (0 : Fin 2) * 200 + 200
      rw [e20]; show (i 0).val / 200 * 200 ≤ (i 0).val ∧ (i 0).val < (i 0).val / 200 * 200 + 200; omega
    | ⟨1, _⟩ =>
      show win0_2.index ⟨(i 0).val / 200, hlt⟩ (1 : Fin 2) * 64 ≤ (i 1).val
        ∧ (i 1).val < win0_2.index ⟨(i 0).val / 200, hlt⟩ (1 : Fin 2) * 64 + 64
      rw [e21]; omega

end Cert.KernelIdeal.Blend

end
-- ==== Proof.KernelValue.lean ====
/-
  The kernel's result, entry by entry, is the fused arrangement of the score.

  After the region the program normalizes the two index vectors (a negative index has the table's row count added),
  gathers the user's row of the region's output — the blended table — and the item's row of the item table, multiplies
  them entry by entry and sums each row of 64 products from the zero pattern. A row gather reads the clamped row its
  start index names, and the row sum is 0 plus the sum over the 64 columns, so entry b of the result is the item row
  against the blended row of the user.
-/
import proofs.«119701_j51737176048221_2_alg».proof.Proof.BlendedArray
import proofs.«119701_j51737176048221_2_alg».proof.Proof.LibRowGather
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.StableHlo
open Idealize.ShloMosaic.Pipeline (Dat)

namespace Cert.KernelIdeal.KValue

open Cert.KernelIdeal Cert.KernelIdeal.Gen Idealize.ShloMosaic.ValueIdx Idealize.ShloMosaic.RowGather

/-! ## The operations after the region, as one function -/

/-- The user indices as a column of start indices, a negative one wrapped by the 10000 rows. -/
def userCol (x3 : (⟨S4096, .i32⟩ : BufTy).Contents (Elt Ideal)) : (⟨S4096x1, .i32⟩ : BufTy).Contents (Elt Ideal) :=
  broadcastInDim S4096x1 ![0] bcast_S4096_S4096x1_0
    (select (cmpi .slt x3 (broadcastInDim S4096 ![] bcast_S_S4096 (constantI S_ 32 0#32)))
      (addi x3 (broadcastInDim S4096 ![] bcast_S_S4096 (constantI S_ 32 10000#32))) x3)

/-- The item indices as a column of start indices, a negative one wrapped by the 100000 rows. -/
def itemCol (x4 : (⟨S4096, .i32⟩ : BufTy).Contents (Elt Ideal)) : (⟨S4096x1, .i32⟩ : BufTy).Contents (Elt Ideal) :=
  broadcastInDim S4096x1 ![0] bcast_S4096_S4096x1_0
    (select (cmpi .slt x4 (broadcastInDim S4096 ![] bcast_S_S4096 (constantI S_ 32 0#32)))
      (addi x4 (broadcastInDim S4096 ![] bcast_S_S4096 (constantI S_ 32 100000#32))) x4)

/-- Gather the two rows, multiply, sum each row. -/
def tail (Q : (⟨S10000x64, .f32⟩ : BufTy).Contents (Elt Ideal)) (ie : (⟨S100000x64, .f32⟩ : BufTy).Contents (Elt Ideal))
    (x3 x4 : (⟨S4096, .i32⟩ : BufTy).Contents (Elt Ideal)) : (⟨S4096, .f32⟩ : BufTy).Contents (Elt Ideal) :=
  Host.reduceAdd (F := Ideal)
    (mulf (F := Ideal) (Host.gather gather_S10000x64_S4096x1_S4096x64_1_0_n_n_0_1_164 Q (userCol x3))
      (Host.gather gather_S100000x64_S4096x1_S4096x64_1_0_n_n_0_1_164 ie (itemCol x4)))
    (constant (F := Ideal) S_ .f32 0x00000000#32) reducesTo_S4096x64_S4096_d1 h_S_

/-- A row of a 10000-row table picked by a column of start indices. -/
theorem userRow (x : (⟨S10000x64, .f32⟩ : BufTy).Contents (Elt Ideal)) (ia : (⟨S4096x1, .i32⟩ : BufTy).Contents (Elt Ideal))
    (b : Fin 4096) (k : Fin 64) :
    Host.gather gather_S10000x64_S4096x1_S4096x64_1_0_n_n_0_1_164 x ia (ix2 b k)
      = x (ix2 (rowOf 10000 (by decide) ia b) k) :=
  gather_row_apply (by decide) gather_S10000x64_S4096x1_S4096x64_1_0_n_n_0_1_164_wf x ia b k

/-- A row of the item table. -/
theorem itemRow (x : (⟨S100000x64, .f32⟩ : BufTy).Contents (Elt Ideal)) (ia : (⟨S4096x1, .i32⟩ : BufTy).Contents (Elt Ideal))
    (b : Fin 4096) (k : Fin 64) :
    Host.gather gather_S100000x64_S4096x1_S4096x64_1_0_n_n_0_1_164 x ia (ix2 b k)
      = x (ix2 (rowOf 100000 (by decide) ia b) k) :=
  gather_row_apply (by decide) gather_S100000x64_S4096x1_S4096x64_1_0_n_n_0_1_164_wf x ia b k

/-- The sum of a row of 64 from the zero pattern: 0 plus the sum over the columns. -/
theorem rowSum_apply (y : FVec Ideal S4096x64 .f32) (b : Fin 4096) :
    Host.reduceAdd (F := Ideal) y (constant (F := Ideal) S_ .f32 0x00000000#32) reducesTo_S4096x64_S4096_d1 h_S_ (ix1 b)
      = 0 + ∑ k : Fin 64, y (ix2 b k) := by
  simp only [Host.reduceAdd, Ideal.hostReduceAdd_def]
  rw [Ideal.hostReduceAdd_single reducesTo_S4096x64_S4096_d1 (by decide)]
  refine congrArg₂ (· + ·) Ideal.ofBits_zero_f32 (Finset.sum_congr rfl fun k _ => ?_)
  exact congrArg y (funext fun a => Fin.ext (by match a with | ⟨0, _⟩ => rfl | ⟨1, _⟩ => rfl))

/-- Entry b of the tail over the blended table is the fused arrangement. -/
theorem tail_apply (sw : (⟨S10000x10000, .f32⟩ : BufTy).Contents (Elt Ideal)) (ue : (⟨S10000x64, .f32⟩ : BufTy).Contents (Elt Ideal))
    (ie : (⟨S100000x64, .f32⟩ : BufTy).Contents (Elt Ideal)) (x3 x4 : (⟨S4096, .i32⟩ : BufTy).Contents (Elt Ideal)) (b : Fin 4096) :
    tail (Blend.table sw ue) ie x3 x4 (ix1 b)
      = Cert.Scores.scoreFused ue ie sw (rowOf 10000 (by decide) (userCol x3)) (rowOf 100000 (by decide) (itemCol x4)) b := by
  unfold tail
  rw [rowSum_apply]
  unfold Cert.Scores.scoreFused
  refine congrArg (0 + ·) (Finset.sum_congr rfl fun k _ => ?_)
  exact congrArg₂ (· * ·) (userRow (Blend.table sw ue) _ b k) (itemRow ie _ b k)

/-! ## The run, read -/

variable (m : (ℓ : Loc nD τ sig) → Buf (Elt Ideal) ℓ) (ρ : Dev nD → PrngReg)

set_option maxHeartbeats 2000000 in
/-- What the result buffer holds after the operations that follow the region: the tail over the blended table of the
    argument arrays. -/
theorem tail_eq (c : Dev nD) :
    Pipeline.afterTail₀ cfgs (dats m) 0 (V0 m) [hostOps1] c main_v16
      = tail (Blend.table (m ((c : Thread nD τ).loc main_arg2)) (m ((c : Thread nD τ).loc main_arg0)))
          (m ((c : Thread nD τ).loc main_arg1)) (m ((c : Thread nD τ).loc main_arg3)) (m ((c : Thread nD τ).loc main_arg4)) := by
  have hQ : Pipeline.withArrays (cfgs 0).spec c (V0 m c) (fun w => (dats m 0 c).arrAt w (cfgs 0).N) (Proc.devRef .tc main_v0)
      = Blend.table (m ((c : Thread nD τ).loc main_arg2)) (m ((c : Thread nD τ).loc main_arg0)) :=
    (Pipeline.withArrays_arr spec0 launch0.win.arr_inj c _ _ 2).trans (Blend.final m c)
  have h1 : Pipeline.withArrays (cfgs 0).spec c (V0 m c) (fun w => (dats m 0 c).arrAt w (cfgs 0).N) (Proc.devRef .tc main_arg1)
      = m ((c : Thread nD τ).loc main_arg1) :=
    Pipeline.withArrays_of_ne _ c (V0 m c) _ main_arg1 (by exact (by decide : ∀ w, Pipeline.arrRef spec0 w ≠ main_arg1))
  have h3 : Pipeline.withArrays (cfgs 0).spec c (V0 m c) (fun w => (dats m 0 c).arrAt w (cfgs 0).N) (Proc.devRef .tc main_arg3)
      = m ((c : Thread nD τ).loc main_arg3) :=
    Pipeline.withArrays_of_ne _ c (V0 m c) _ main_arg3 (by exact (by decide : ∀ w, Pipeline.arrRef spec0 w ≠ main_arg3))
  have h4 : Pipeline.withArrays (cfgs 0).spec c (V0 m c) (fun w => (dats m 0 c).arrAt w (cfgs 0).N) (Proc.devRef .tc main_arg4)
      = m ((c : Thread nD τ).loc main_arg4) :=
    Pipeline.withArrays_of_ne _ c (V0 m c) _ main_arg4 (by exact (by decide : ∀ w, Pipeline.arrRef spec0 w ≠ main_arg4))
  unfold Pipeline.afterTail₀
  simp only [hostOps1, List.flatten_cons, List.flatten_nil, List.append_nil]
  after_results_simp
  rw [hQ, h1, h3, h4]
  rfl

/-- The run with its result named: every weakly fair execution terminates with the result buffer at the tail over the
    blended table of the argument arrays, and the argument arrays as they were. -/
theorem run : θ_run defs (onTc (τ := τ) (main (F := Ideal))) ⟨m, fun _ => 0, ρ⟩ fun r => ∀ c : Dev nD,
      r.2.mem ((c.tc : Thread nD τ).loc main_v16)
        = tail (Blend.table (m ((c : Thread nD τ).loc main_arg2)) (m ((c : Thread nD τ).loc main_arg0)))
            (m ((c : Thread nD τ).loc main_arg1)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.lean ====
/-
  The score of 4096 (user, item) pairs with a social term: the kernel against its reference, on the extended reals.

  For pair b with user row U and item row I (each index wrapped if negative and clamped by the gather, identically in
  both programs), over the user table ue, the item table ie and the social weights sw:

    the reference computes   Σ_d ue[U, d] · ie[I, d]  +  Σ_u sw[U, u] · (Σ_d ie[I, d] · ue[u, d]),
    the kernel computes      Σ_d (Σ_u sw[U, u] · ue[u, d] + ue[U, d]) · ie[I, d],

  the inner table Σ_u sw[r, u] · ue[u, d] + ue[r, d] built for ALL rows r by a pipelined region (a matrix product of
  200-row blocks of the weights with the user table, plus the matching rows of the user table), then gathered at U. The
  two are equal by distributing a product over a finite sum and exchanging two finite sums — true of reals, false at
  infinities — so the equality uses the precondition that every float input is finite. The idealization rewrote
  nothing, so its conjunct is trivially true; the three frames are the generated ones (the reference's is its
  generated run with the result dropped).
-/
import proofs.«119701_j51737176048221_2_alg».proof.Defs
import proofs.«119701_j51737176048221_2_alg».proof.Proof.Gen.Kernel
import proofs.«119701_j51737176048221_2_alg».proof.Proof.Gen.Kernel.Skeleton
import proofs.«119701_j51737176048221_2_alg».proof.Proof.Gen.Kernel.Launch
import proofs.«119701_j51737176048221_2_alg».proof.Proof.Gen.Kernel.Points
import proofs.«119701_j51737176048221_2_alg».proof.Proof.Gen.Kernel.Frame
import proofs.«119701_j51737176048221_2_alg».proof.Proof.Gen.KernelIdeal
import proofs.«119701_j51737176048221_2_alg».proof.Proof.Gen.KernelIdeal.Skeleton
import proofs.«119701_j51737176048221_2_alg».proof.Proof.Gen.KernelIdeal.Launch
import proofs.«119701_j51737176048221_2_alg».proof.Proof.Gen.KernelIdeal.Points
import proofs.«119701_j51737176048221_2_alg».proof.Proof.Gen.KernelIdeal.Frame
import proofs.«119701_j51737176048221_2_alg».proof.Proof.Gen.ReferenceIdeal
import proofs.«119701_j51737176048221_2_alg».proof.Proof.Gen.Pre_finite_inputs
import proofs.«119701_j51737176048221_2_alg».proof.Proof.Gen.ReferenceIdeal.Run
import proofs.«119701_j51737176048221_2_alg».proof.Proof.Gen.ReferenceIdeal.Read
import proofs.«119701_j51737176048221_2_alg».proof.Proof.Finite
import proofs.«119701_j51737176048221_2_alg».proof.Proof.RefValue
import proofs.«119701_j51737176048221_2_alg».proof.Proof.KernelValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both programs run; the kernel's result is the fused arrangement of the score at every pair, the reference's the
    split arrangement, of the same tables and the same rows; for finite tables the two arrangements agree. -/
theorem algebraic : Cert.algebraic_KernelIdeal_ReferenceIdeal := by
  intro m ρ m' ρ' hpre hagree
  refine ⟨fun c => Cert.KernelIdeal.KValue.tail
      (Cert.KernelIdeal.Blend.table (m ((c.tc : Thread Cert.KernelIdeal.nD Cert.KernelIdeal.τ).loc Cert.KernelIdeal.main_arg2))
        (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2]
  obtain ⟨hue, hie, hsw⟩ := Cert.Finite.entries_real _ _ _ _ _ (hpre c)
  funext i
  obtain ⟨b, rfl⟩ : ∃ b : Fin 4096, i = ix1 b := ⟨i 0, eq_ix1 i⟩
  rw [Cert.ReferenceIdeal.RefValue.result_apply]
  refine Eq.trans ?_ (Cert.KernelIdeal.KValue.tail_apply _ _ _ _ _ b).symm
  exact (Cert.Scores.scoreFused_eq_scoreSplit _ _ _ hue hie hsw _ _ b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
